-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32x16 .f32) (main_arg6 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x32 .f32) (main_arg4 : FVec F S32 .f32) (main_arg5 : FVec F S32x16 .f32) (main_arg6 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x32 .f32 := Host.absf main_arg3
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x256 : Shape := ⟨2, ![5000, 256]⟩
abbrev S5000x32 : Shape := ⟨2, ![5000, 32]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x32, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x1, .f32⟩
  | .hbm, ⟨60, _⟩ => ⟨S3300000x32, .f32⟩
  | .hbm, ⟨61, _⟩ => ⟨S3300000x32, .f32⟩
  | .hbm, ⟨62, _⟩ => ⟨S_, .f32⟩
  | .hbm, ⟨63, _⟩ => ⟨S100000x32, .f32⟩
  | .hbm, ⟨64, _⟩ => ⟨S3300000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x16, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x16, .f32⟩
  | .hbm, ⟨78, _⟩ => ⟨S3300000x1, .f32⟩
  | .hbm, ⟨79, _⟩ => ⟨S3300000x16, .f32⟩
  | .hbm, ⟨80, _⟩ => ⟨S3300000x16, .f32⟩
  | .hbm, ⟨81, _⟩ => ⟨S_, .f32⟩
  | .hbm, ⟨82, _⟩ => ⟨S100000x16, .f32⟩
  | .hbm, ⟨83, _⟩ => ⟨S3300000x1, .i32⟩
  | .hbm, ⟨84, _⟩ => ⟨S100000x16, .f32⟩
  | .hbm, ⟨85, _⟩ => ⟨S1x16, .f32⟩
  | .hbm, ⟨86, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x32, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x1, .f32⟩
  | .hbm, ⟨60, _⟩ => ⟨S3300000x32, .f32⟩
  | .hbm, ⟨61, _⟩ => ⟨S3300000x32, .f32⟩
  | .hbm, ⟨62, _⟩ => ⟨S_, .f32⟩
  | .hbm, ⟨63, _⟩ => ⟨S100000x32, .f32⟩
  | .hbm, ⟨64, _⟩ => ⟨S3300000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x16, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x16, .f32⟩
  | .hbm, ⟨82, _⟩ => ⟨S3300000x1, .f32⟩
  | .hbm, ⟨83, _⟩ => ⟨S3300000x16, .f32⟩
  | .hbm, ⟨84, _⟩ => ⟨S3300000x16, .f32⟩
  | .hbm, ⟨85, _⟩ => ⟨S_, .f32⟩
  | .hbm, ⟨86, _⟩ => ⟨S100000x16, .f32⟩
  | .hbm, ⟨87, _⟩ => ⟨S3300000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x16, .f32⟩
  | .hbm, ⟨106, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x32_S100000x32_1_0_0_1_n_n_wf : DotDims.WF S100000x256 S256x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefRun.lean ====
/-
  The reference's run, read stretch by stretch.

  The reference's @main is a straight line of 100 host operations.  Every weakly fair execution of it terminates, and
  each buffer ends at the fold of the operations over the launch memory.  The line is cut here into five stretches — the
  edge lists with their self loops (10 operations); the degrees and the symmetric normalisation (32); the first layer: projection, gather /
  scale / scatter-add, bias, rectifier (23); the second layer up to its bias (20); the log-softmax (15) — and the fold is
  read one stretch at a time against the reference's named stages: what a stretch leaves in the buffers later stretches
  read is a stage of the seven arguments, provided the buffers it reads held the earlier stages, and a buffer it does not
  write keeps its contents.  Composing the five: the result buffer ends at the last stage, the log-softmax, as a function
  of the arguments as launched, and the arguments are unchanged.
-/
import proofs.«114454_j17308718202950_1_alg».proof.Proof.RunP
import proofs.«114454_j17308718202950_1_alg».proof.Proof.ReadP
import proofs.«114454_j17308718202950_1_alg».proof.Proof.LibAfterAppend

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The three lists over the edges — sources, targets, weights — each with the self loops appended. -/
abbrev listOps : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]

/-- The degrees by a scatter-add of the weights at the targets, d^(-1/2) where the degree is positive and 0 elsewhere, and
    the normalisation d^(-1/2)[source] · w · d^(-1/2)[target] of every edge and self loop. -/
abbrev normOps : List (HloOp τ sig (Elt F)) :=
  [ nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v5 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v5 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The first layer: x · W1, gathered at the sources, scaled, scatter-added at the targets, plus the bias, rectified. -/
abbrev layer1Ops : List (HloOp τ sig (Elt F)) :=
  [ binary main_arg0 main_arg3 main_v32 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v5 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v5 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v5 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x32 ![0, 1] bcast_S3300000x1_S3300000x32_0_1 : (⟨S3300000x1, .f32⟩ : BufTy).Contents (Elt F) → (⟨S3300000x32, .f32⟩ : BufTy).Contents (Elt F)),
    binary main_v39 main_v41 main_v42 (mulf : (⟨S3300000x32, .f32⟩ : BufTy).Contents (Elt F) → (⟨S3300000x32, .f32⟩ : BufTy).Contents (Elt F) → (⟨S3300000x32, .f32⟩ : BufTy).Contents (Elt F)),
    nullary main_cst_8 (constant S_ .f32 0x00000000#32),
    unary main_cst_8 main_v43 (broadcastInDim S100000x32 ![] bcast_S_S100000x32 : (⟨S_, .f32⟩ : BufTy).Contents (Elt F) → (⟨S100000x32, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg4 main_v46 (broadcastInDim S1x32 ![1] bcast_S32_S1x32_1 : (⟨S32, .f32⟩ : BufTy).Contents (Elt F) → (⟨S1x32, .f32⟩ : BufTy).Contents (Elt F)),
    unary main_v46 main_v47 (broadcastInDim S100000x32 ![0, 1] bcast_S1x32_S100000x32_0_1 : (⟨S1x32, .f32⟩ : BufTy).Contents (Elt F) → (⟨S100000x32, .f32⟩ : BufTy).Contents (Elt F)),
    binary main_v45 main_v47 main_v48 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v48) (TRef.of (T := ⟨S100000x32, .f32⟩) main_call1_v0) (TRef.of (T := ⟨S100000x32, .f32⟩) main_v49) maximumf ]

/-- The second layer up to its bias: h · W2, gathered, scaled, scatter-added, plus the bias. -/
abbrev layer2Ops : List (HloOp τ sig (Elt F)) :=
  [ binary main_v49 main_arg5 main_v50 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    nullary main_c_9 (constantI S_ 32 0#32),
    unary main_c_9 main_v51 (broadcastInDim S3300000 ![] bcast_S_S3300000 : (⟨S_, .i32⟩ : BufTy).Contents (Elt F) → (⟨S3300000, .i32⟩ : BufTy).Contents (Elt F)),
    binary main_v5 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v53 (broadcastInDim S3300000 ![] bcast_S_S3300000 : (⟨S_, .i32⟩ : BufTy).Contents (Elt F) → (⟨S3300000, .i32⟩ : BufTy).Contents (Elt F)),
    binary main_v5 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v5 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x16 ![0, 1] bcast_S3300000x1_S3300000x16_0_1 : (⟨S3300000x1, .f32⟩ : BufTy).Contents (Elt F) → (⟨S3300000x16, .f32⟩ : BufTy).Contents (Elt F)),
    binary main_v57 main_v59 main_v60 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v61 (broadcastInDim S100000x16 ![] bcast_S_S100000x16 : (⟨S_, .f32⟩ : BufTy).Contents (Elt F) → (⟨S100000x16, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg6 main_v64 (broadcastInDim S1x16 ![1] bcast_S16_S1x16_1 : (⟨S16, .f32⟩ : BufTy).Contents (Elt F) → (⟨S1x16, .f32⟩ : BufTy).Contents (Elt F)),
    unary main_v64 main_v65 (broadcastInDim S100000x16 ![0, 1] bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)) ]

/-- The log-softmax of every row. -/
abbrev softmaxOps : List (HloOp τ sig (Elt F)) :=
  [ TRef.nullary (TRef.of (T := ⟨S_, .f32⟩) main_call2_cst) (constant S_ .f32 0xFF800000#32),
    TRef.binary (TRef.of (T := ⟨S100000x16, .f32⟩) main_v66) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v66) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v67) subf ]

/-- @main's line is the four stretches in order. -/
theorem ops_split : (ops : List (HloOp τ sig (Elt F))) = listOps ++ (normOps ++ (layer1Ops ++ (layer2Ops ++ softmaxOps))) := rfl

/-- Reads a buffer through a literal stretch: each operation's result at its own buffer is its function's value, at any
    other buffer what was there. One simp pass; it does not look inside the operand list of a concatenation. -/
macro "read_stretch" : tactic =>
  `(tactic| (dsimp only [listOps, normOps, layer1Ops, layer2Ops, softmaxOps]; after_results_simp))
/-- The same by rewriting, operation by operation: slower, and it does go through a concatenation's operands. -/
macro "read_lists" : tactic =>
  `(tactic| (dsimp only [listOps]; after_results))

variable (W : Valuation τ sig (Elt F))

/-! ## The lists, then the normalisation -/

theorem lists_v5 : after listOps W (Proc.devRef .tc main_v5) = val_main_v5 (F := F) (W (Proc.devRef .tc main_arg1)) := by
  read_lists <;> rfl
theorem lists_v6 : after listOps W (Proc.devRef .tc main_v6) = val_main_v6 (F := F) (W (Proc.devRef .tc main_arg1)) := by
  read_lists <;> rfl
theorem lists_v8 : after listOps W (Proc.devRef .tc main_v8) = val_main_v8 (F := F) (W (Proc.devRef .tc main_arg2)) := by
  read_lists <;> rfl
theorem lists_arg0 : after listOps W (Proc.devRef .tc main_arg0) = W (Proc.devRef .tc main_arg0) := by
  read_stretch <;> rfl
theorem lists_arg3 : after listOps W (Proc.devRef .tc main_arg3) = W (Proc.devRef .tc main_arg3) := by
  read_stretch <;> rfl
theorem lists_arg4 : after listOps W (Proc.devRef .tc main_arg4) = W (Proc.devRef .tc main_arg4) := by
  read_stretch <;> rfl
theorem lists_arg5 : after listOps W (Proc.devRef .tc main_arg5) = W (Proc.devRef .tc main_arg5) := by
  read_stretch <;> rfl
theorem lists_arg6 : after listOps W (Proc.devRef .tc main_arg6) = W (Proc.devRef .tc main_arg6) := by
  read_stretch <;> rfl

theorem norm_v31 (x1 : (⟨S2x3200000, .i32⟩ : BufTy).Contents (Elt F)) (x2 : (⟨S3200000, .f32⟩ : BufTy).Contents (Elt F))
    (h5 : W (Proc.devRef .tc main_v5) = val_main_v5 (F := F) x1) (h6 : W (Proc.devRef .tc main_v6) = val_main_v6 (F := F) x1)
    (h8 : W (Proc.devRef .tc main_v8) = val_main_v8 (F := F) x2) :
    after normOps W (Proc.devRef .tc main_v31) = val_main_v31 (F := F) x1 x2 := by
  read_stretch
  rw [h5, h6, h8]
  rfl
theorem norm_v5 : after normOps W (Proc.devRef .tc main_v5) = W (Proc.devRef .tc main_v5) := by
  read_stretch <;> rfl
theorem norm_v6 : after normOps W (Proc.devRef .tc main_v6) = W (Proc.devRef .tc main_v6) := by
  read_stretch <;> rfl
theorem norm_arg0 : after normOps W (Proc.devRef .tc main_arg0) = W (Proc.devRef .tc main_arg0) := by
  read_stretch <;> rfl
theorem norm_arg3 : after normOps W (Proc.devRef .tc main_arg3) = W (Proc.devRef .tc main_arg3) := by
  read_stretch <;> rfl
theorem norm_arg4 : after normOps W (Proc.devRef .tc main_arg4) = W (Proc.devRef .tc main_arg4) := by
  read_stretch <;> rfl
theorem norm_arg5 : after normOps W (Proc.devRef .tc main_arg5) = W (Proc.devRef .tc main_arg5) := by
  read_stretch <;> rfl
theorem norm_arg6 : after normOps W (Proc.devRef .tc main_arg6) = W (Proc.devRef .tc main_arg6) := by
  read_stretch <;> rfl

/-! ## The first layer -/

theorem layer1_v49 (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x32, .f32⟩ : BufTy).Contents (Elt F)) (x4 : (⟨S32, .f32⟩ : BufTy).Contents (Elt F))
    (h5 : W (Proc.devRef .tc main_v5) = val_main_v5 (F := F) x1) (h6 : W (Proc.devRef .tc main_v6) = val_main_v6 (F := F) x1)
    (h31 : W (Proc.devRef .tc main_v31) = val_main_v31 (F := F) x1 x2)
    (h0 : W (Proc.devRef .tc main_arg0) = x0) (h3 : W (Proc.devRef .tc main_arg3) = x3) (h4 : W (Proc.devRef .tc main_arg4) = x4) :
    after layer1Ops W (Proc.devRef .tc main_v49) = val_main_v49 (F := F) x0 x1 x2 x3 x4 := by
  read_stretch
  rw [h5, h6, h31, h0, h3, h4]
  rfl
theorem layer1_v5 : after layer1Ops W (Proc.devRef .tc main_v5) = W (Proc.devRef .tc main_v5) := by
  read_stretch <;> rfl
theorem layer1_v6 : after layer1Ops W (Proc.devRef .tc main_v6) = W (Proc.devRef .tc main_v6) := by
  read_stretch <;> rfl
theorem layer1_v31 : after layer1Ops W (Proc.devRef .tc main_v31) = W (Proc.devRef .tc main_v31) := by
  read_stretch <;> rfl
theorem layer1_arg5 : after layer1Ops W (Proc.devRef .tc main_arg5) = W (Proc.devRef .tc main_arg5) := by
  read_stretch <;> rfl
theorem layer1_arg6 : after layer1Ops W (Proc.devRef .tc main_arg6) = W (Proc.devRef .tc main_arg6) := by
  read_stretch <;> rfl

/-! ## The second layer up to its bias -/

theorem layer2_v66 (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x32, .f32⟩ : BufTy).Contents (Elt F)) (x4 : (⟨S32, .f32⟩ : BufTy).Contents (Elt F)) (x5 : (⟨S32x16, .f32⟩ : BufTy).Contents (Elt F)) (x6 : (⟨S16, .f32⟩ : BufTy).Contents (Elt F))
    (h49 : W (Proc.devRef .tc main_v49) = val_main_v49 (F := F) x0 x1 x2 x3 x4)
    (h5 : W (Proc.devRef .tc main_v5) = val_main_v5 (F := F) x1) (h6 : W (Proc.devRef .tc main_v6) = val_main_v6 (F := F) x1)
    (h31 : W (Proc.devRef .tc main_v31) = val_main_v31 (F := F) x1 x2)
    (ha5 : W (Proc.devRef .tc main_arg5) = x5) (ha6 : W (Proc.devRef .tc main_arg6) = x6) :
    after layer2Ops W (Proc.devRef .tc main_v66) = val_main_v66 (F := F) x0 x1 x2 x3 x4 x5 x6 := by
  read_stretch
  rw [h49, h5, h6, h31, ha5, ha6]
  rfl

/-! ## The log-softmax

The outlined function's buffers are typed references; a value written to such a buffer and read back is the value (the
two transports along the buffer's type equation cancel).  One small lemma per buffer, on a variable. -/

theorem rt_main_call2_cst (v : (⟨S_, .f32⟩ : BufTy).Contents (Elt F)) :
    (TRef.of (T := ⟨S_, .f32⟩) main_call2_cst).ofBuf ((TRef.of (T := ⟨S_, .f32⟩) main_call2_cst).toBuf v) = v :=
  (cast_cast _ _ v).trans (cast_eq _ v)
theorem rt_main_v66 (v : (⟨S100000x16, .f32⟩ : BufTy).Contents (Elt F)) :
    (TRef.of (T := ⟨S100000x16, .f32⟩) main_v66).ofBuf ((TRef.of (T := ⟨S100000x16, .f32⟩) main_v66).toBuf v) = v :=
  (cast_cast _ _ v).trans (cast_eq _ v)
theorem rt_main_call2_v0 (v : (⟨S100000, .f32⟩ : BufTy).Contents (Elt F)) :
    (TRef.of (T := ⟨S100000, .f32⟩) main_call2_v0).ofBuf ((TRef.of (T := ⟨S100000, .f32⟩) main_call2_v0).toBuf v) = v :=
  (cast_cast _ _ v).trans (cast_eq _ v)
theorem rt_main_call2_cst_0 (v : (⟨S_, .f32⟩ : BufTy).Contents (Elt F)) :
    (TRef.of (T := ⟨S_, .f32⟩) main_call2_cst_0).ofBuf ((TRef.of (T := ⟨S_, .f32⟩) main_call2_cst_0).toBuf v) = v :=
  (cast_cast _ _ v).trans (cast_eq _ v)
theorem rt_main_call2_v1 (v : (⟨S100000, .f32⟩ : BufTy).Contents (Elt F)) :
    (TRef.of (T := ⟨S100000, .f32⟩) main_call2_v1).ofBuf ((TRef.of (T := ⟨S100000, .f32⟩) main_call2_v1).toBuf v) = v :=
  (cast_cast _ _ v).trans (cast_eq _ v)
theorem rt_main_call2_v2 (v : (⟨S100000, .f32⟩ : BufTy).Contents (Elt F)) :
    (TRef.of (T := ⟨S100000, .f32⟩) main_call2_v2).ofBuf ((TRef.of (T := ⟨S100000, .f32⟩) main_call2_v2).toBuf v) = v :=
  (cast_cast _ _ v).trans (cast_eq _ v)
theorem rt_main_call2_v3 (v : (⟨S100000x1, .f32⟩ : BufTy).Contents (Elt F)) :
    (TRef.of (T := ⟨S100000x1, .f32⟩) main_call2_v3).ofBuf ((TRef.of (T := ⟨S100000x1, .f32⟩) main_call2_v3).toBuf v) = v :=
  (cast_cast _ _ v).trans (cast_eq _ v)
theorem rt_main_call2_v4 (v : (⟨S100000x16, .f32⟩ : BufTy).Contents (Elt F)) :
    (TRef.of (T := ⟨S100000x16, .f32⟩) main_call2_v4).ofBuf ((TRef.of (T := ⟨S100000x16, .f32⟩) main_call2_v4).toBuf v) = v :=
  (cast_cast _ _ v).trans (cast_eq _ v)
theorem rt_main_call2_v5 (v : (⟨S100000x16, .f32⟩ : BufTy).Contents (Elt F)) :
    (TRef.of (T := ⟨S100000x16, .f32⟩) main_call2_v5).ofBuf ((TRef.of (T := ⟨S100000x16, .f32⟩) main_call2_v5).toBuf v) = v :=
  (cast_cast _ _ v).trans (cast_eq _ v)
theorem rt_main_call2_v6 (v : (⟨S100000x16, .f32⟩ : BufTy).Contents (Elt F)) :
    (TRef.of (T := ⟨S100000x16, .f32⟩) main_call2_v6).ofBuf ((TRef.of (T := ⟨S100000x16, .f32⟩) main_call2_v6).toBuf v) = v :=
  (cast_cast _ _ v).trans (cast_eq _ v)
theorem rt_main_call2_cst_1 (v : (⟨S_, .f32⟩ : BufTy).Contents (Elt F)) :
    (TRef.of (T := ⟨S_, .f32⟩) main_call2_cst_1).ofBuf ((TRef.of (T := ⟨S_, .f32⟩) main_call2_cst_1).toBuf v) = v :=
  (cast_cast _ _ v).trans (cast_eq _ v)
theorem rt_main_call2_v7 (v : (⟨S100000, .f32⟩ : BufTy).Contents (Elt F)) :
    (TRef.of (T := ⟨S100000, .f32⟩) main_call2_v7).ofBuf ((TRef.of (T := ⟨S100000, .f32⟩) main_call2_v7).toBuf v) = v :=
  (cast_cast _ _ v).trans (cast_eq _ v)
theorem rt_main_call2_v8 (v : (⟨S100000x1, .f32⟩ : BufTy).Contents (Elt F)) :
    (TRef.of (T := ⟨S100000x1, .f32⟩) main_call2_v8).ofBuf ((TRef.of (T := ⟨S100000x1, .f32⟩) main_call2_v8).toBuf v) = v :=
  (cast_cast _ _ v).trans (cast_eq _ v)
theorem rt_main_call2_v9 (v : (⟨S100000x1, .f32⟩ : BufTy).Contents (Elt F)) :
    (TRef.of (T := ⟨S100000x1, .f32⟩) main_call2_v9).ofBuf ((TRef.of (T := ⟨S100000x1, .f32⟩) main_call2_v9).toBuf v) = v :=
  (cast_cast _ _ v).trans (cast_eq _ v)
theorem rt_main_call2_v10 (v : (⟨S100000x16, .f32⟩ : BufTy).Contents (Elt F)) :
    (TRef.of (T := ⟨S100000x16, .f32⟩) main_call2_v10).ofBuf ((TRef.of (T := ⟨S100000x16, .f32⟩) main_call2_v10).toBuf v) = v :=
  (cast_cast _ _ v).trans (cast_eq _ v)
theorem rt_main_v67 (v : (⟨S100000x16, .f32⟩ : BufTy).Contents (Elt F)) :
    (TRef.of (T := ⟨S100000x16, .f32⟩) main_v67).ofBuf ((TRef.of (T := ⟨S100000x16, .f32⟩) main_v67).toBuf v) = v :=
  (cast_cast _ _ v).trans (cast_eq _ v)

/-- A value transported to the buffer's own type is the value. -/
theorem tb_main_v66 (v : (⟨S100000x16, .f32⟩ : BufTy).Contents (Elt F)) :
    (TRef.of (T := ⟨S100000x16, .f32⟩) main_v66).toBuf v = v := rfl
theorem tb_main_v67 (v : (⟨S100000x16, .f32⟩ : BufTy).Contents (Elt F)) :
    (TRef.of (T := ⟨S100000x16, .f32⟩) main_v67).toBuf v = v := rfl

/-- The log-softmax stretch leaves the reference's result, when it finds the biased second aggregation. The two sides are
    made the same term step by step — the buffers' transports cancelled, the stages' names unfolded by their equations —
    so that nothing is left to a definitional comparison of the row reductions. -/
theorem softmax_v67 (x0 : (⟨S100000x256, .f32⟩ : BufTy).Contents (Elt F)) (x1 : (⟨S2x3200000, .i32⟩ : BufTy).Contents (Elt F)) (x2 : (⟨S3200000, .f32⟩ : BufTy).Contents (Elt F)) (x3 : (⟨S256x32, .f32⟩ : BufTy).Contents (Elt F)) (x4 : (⟨S32, .f32⟩ : BufTy).Contents (Elt F)) (x5 : (⟨S32x16, .f32⟩ : BufTy).Contents (Elt F)) (x6 : (⟨S16, .f32⟩ : BufTy).Contents (Elt F))
    (h66 : W (Proc.devRef .tc main_v66) = val_main_v66 (F := F) x0 x1 x2 x3 x4 x5 x6) :
    after softmaxOps W (Proc.devRef .tc main_v67) = val_main_v67 (F := F) x0 x1 x2 x3 x4 x5 x6 := by
  have h66' : W (Proc.devRef .tc main_v66) = (TRef.of (T := ⟨S100000x16, .f32⟩) main_v66).toBuf (val_main_v66 (F := F) x0 x1 x2 x3 x4 x5 x6) :=
    h66.trans (tb_main_v66 _).symm
  read_stretch
  rw [h66']
  simp only [rt_main_call2_cst, rt_main_v66, rt_main_call2_v0, rt_main_call2_cst_0, rt_main_call2_v1, rt_main_call2_v2, rt_main_call2_v3, rt_main_call2_v4, rt_main_call2_v5, rt_main_call2_v6, rt_main_call2_cst_1, rt_main_call2_v7, rt_main_call2_v8, rt_main_call2_v9, rt_main_call2_v10, rt_main_v67]
  refine (tb_main_v67 _).trans ?_
  rw [val_main_v67, val_main_call2_v10, val_main_call2_v9, val_main_call2_v8, val_main_call2_v7, val_main_call2_cst_1, val_main_call2_v6, val_main_call2_v5, val_main_call2_v4, val_main_call2_v3, val_main_call2_v2, val_main_call2_v1, val_main_call2_cst_0, val_main_call2_v0, val_main_call2_cst]

/-! ## The whole line -/

/-- The result buffer after the whole line: the reference's last stage of the seven arguments' contents. -/
theorem result_eq : after (ops (F := F)) W (Proc.devRef .tc main_v67)
    = val_main_v67 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_split, Cert.LibAfterAppend.after_append, Cert.LibAfterAppend.after_append, Cert.LibAfterAppend.after_append,
    Cert.LibAfterAppend.after_append]
  have e5 := (norm_v5 (after listOps W)).trans (lists_v5 W)
  have e6 := (norm_v6 (after listOps W)).trans (lists_v6 W)
  have e31 := norm_v31 (after listOps W) _ _ (lists_v5 W) (lists_v6 W) (lists_v8 W)
  have a0 := (norm_arg0 (after listOps W)).trans (lists_arg0 W)
  have a3 := (norm_arg3 (after listOps W)).trans (lists_arg3 W)
  have a4 := (norm_arg4 (after listOps W)).trans (lists_arg4 W)
  have a5 := (norm_arg5 (after listOps W)).trans (lists_arg5 W)
  have a6 := (norm_arg6 (after listOps W)).trans (lists_arg6 W)
  exact softmax_v67 _ _ _ _ _ _ _ _ (layer2_v66 _ _ _ _ _ _ _ _
    (layer1_v49 _ _ _ _ _ _ e5 e6 e31 a0 a3 a4)
    ((layer1_v5 _).trans e5) ((layer1_v6 _).trans e6) ((layer1_v31 _).trans e31)
    ((layer1_arg5 _).trans a5) ((layer1_arg6 _).trans a6))

set_option maxHeartbeats 4000000 in
/-- On every device, from any memory with zero counters: every weakly fair execution of the reference terminates with
    the result at its last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.KRun.lean ====
/-
  The idealized kernel's run with its result named.

  @main is nine segments: three stretches of host operations (the edge lists with their self loops, the degrees, the
  symmetric normalisation), the first projection x·W1 on the matrix unit, a stretch (gather, scale, scatter-add over the
  edges), the bias-and-rectifier kernel, the second projection h·W2, a second gather / scale / scatter-add stretch, and the
  bias-and-log-softmax kernel.  Every weakly fair execution terminates without a fault; at the end every unscoped
  TensorCore buffer holds the last boundary's contents, the fold of the nine segments over the launch memory.  So the
  result buffer holds that fold read at the last kernel's output array, and the seven arguments are as launched.
-/
import proofs.«114454_j17308718202950_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents read at the last kernel's output array, and each argument array ends as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Run

end
-- ==== Proof.Rowwise.lean ====
/-
  The two row-wise stages of the reference as functions of what they are applied to.

  After each aggregation over the edges the reference adds a bias to every row and applies a row-wise map: the
  rectifier max(·, 0) after the first layer, the log-softmax after the second.  The reference's stages are stated as
  functions of the seven arguments; here the same operations are stated as functions of the aggregated array (and of the
  bias laid out as a row), so that a kernel computing them block of rows by block of rows can be compared with them row
  by row.  Applied to the reference's own aggregated arrays they are the reference's stages, by unfolding (stated where the
  reference's stages are in scope).

  The log-softmax of a row z is  (z − m) − log Σ_k exp(z_k − m)  with m the row's maximum (taken from −∞, and once more
  against −∞, which changes nothing).
-/
import proofs.«114454_j17308718202950_1_alg».proof.Proof.Gen.ReferenceIdeal
import Idealize.ShloMosaic.PureOps.Ideal

noncomputable section

namespace Cert.Rowwise

open Idealize.ShloMosaic Cert.ReferenceIdeal Cert.ReferenceIdeal.Gen

/-- The bias row added to every row, then the rectifier: max(a + b, 0). -/
def biasRelu (a : FVec Ideal S100000x32 .f32) (b : FVec Ideal S1x32 .f32) : FVec Ideal S100000x32 .f32 :=
  maximumf (addf a (broadcastInDim S100000x32 ![0, 1] bcast_S1x32_S100000x32_0_1 b)) (broadcastInDim S100000x32 ![] bcast_S_S100000x32 (constant (F := Ideal) S_ .f32 0x00000000#32))

/-- The bias row added to every row of the second aggregation. -/
def biased (a : FVec Ideal S100000x16 .f32) (b : FVec Ideal S1x16 .f32) : FVec Ideal S100000x16 .f32 :=
  addf a (broadcastInDim S100000x16 ![0, 1] bcast_S1x16_S100000x16_0_1 b)

/-- Each row's maximum, from −∞ (and once more against −∞). -/
def rowMax (z : FVec Ideal S100000x16 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x16_S100000_d1 h_S_)

/-- Each entry less its row's maximum. -/
def shifted (z : FVec Ideal S100000x16 .f32) : FVec Ideal S100000x16 .f32 :=
  subf z (broadcastInDim S100000x16 ![0, 1] bcast_S100000x1_S100000x16_0_1
    (broadcastInDim S100000x1 ![0] bcast_S100000_S100000x1_0 (rowMax z)))

/-- The logarithm of each row's sum of exponentials of the shifted entries, kept as a column. -/
def logSumExp (z : FVec Ideal S100000x16 .f32) : FVec Ideal S100000x1 .f32 :=
  Host.log (broadcastInDim S100000x1 ![0] bcast_S100000_S100000x1_0
    (Host.reduceAdd (Host.exp (shifted z)) (constant (F := Ideal) S_ .f32 0x00000000#32) reducesTo_S100000x16_S100000_d1 h_S_))

/-- The log-softmax of every row. -/
def logSoftmax (z : FVec Ideal S100000x16 .f32) : FVec Ideal S100000x16 .f32 :=
  subf (shifted z) (broadcastInDim S100000x16 ![0, 1] bcast_S100000x1_S100000x16_0_1 (logSumExp z))

end Cert.Rowwise

end
-- ==== Proof.Stages.lean ====
/-
  The two row-wise maps applied to the reference's own aggregations are the reference's stages.

  The reference adds the bias to its first aggregation and rectifies; it adds the second bias to its second aggregation and
  takes the log-softmax of every row.  Stated as functions of the aggregated array and of the bias laid out as a row
  (`biasRelu`, `logSoftmax ∘ biased`), these maps, applied to the reference's aggregations and to its biases broadcast to
  rows, are the reference's hidden layer and result: the two sides are the same operations, by unfolding the names.
-/
import proofs.«114454_j17308718202950_1_alg».proof.Proof.ReadP
import proofs.«114454_j17308718202950_1_alg».proof.Proof.Rowwise

noncomputable section

namespace Cert.Rowwise

open Idealize.ShloMosaic Cert.ReferenceIdeal Cert.ReferenceIdeal.Gen Cert.ReferenceIdeal.ReadP

/-- Applied to the first aggregation and the first bias laid out as a row, `biasRelu` is the reference's hidden layer. -/
theorem biasRelu_stage (x0 : FVec Ideal S100000x256 .f32) (x1 : (⟨S2x3200000, .i32⟩ : BufTy).Contents (Elt Ideal))
    (x2 : FVec Ideal S3200000 .f32) (x3 : FVec Ideal S256x32 .f32) (x4 : FVec Ideal S32 .f32) :
    biasRelu (val_main_v45 (F := Ideal) x0 x1 x2 x3) (val_main_v46 (F := Ideal) x4) = val_main_v49 (F := Ideal) x0 x1 x2 x3 x4 := by
  simp only [biasRelu, val_main_v49, val_main_v48, val_main_v47, val_main_call1_v0, val_main_call1_cst]

/-- Applied to the second aggregation and the second bias laid out as a row, `logSoftmax ∘ biased` is the reference's result. -/
theorem logSoftmax_stage (x0 : FVec Ideal S100000x256 .f32) (x1 : (⟨S2x3200000, .i32⟩ : BufTy).Contents (Elt Ideal))
    (x2 : FVec Ideal S3200000 .f32) (x3 : FVec Ideal S256x32 .f32) (x4 : FVec Ideal S32 .f32) (x5 : FVec Ideal S32x16 .f32)
    (x6 : FVec Ideal S16 .f32) :
    logSoftmax (biased (val_main_v63 (F := Ideal) x0 x1 x2 x3 x4 x5) (val_main_v64 (F := Ideal) x6)) = val_main_v67 (F := Ideal) x0 x1 x2 x3 x4 x5 x6 := by
  simp only [logSoftmax, logSumExp, shifted, rowMax, biased, val_main_v67, val_main_call2_v10, val_main_call2_v9, val_main_call2_v8, val_main_call2_v7, val_main_call2_cst_1, val_main_call2_v6, val_main_call2_v5, val_main_call2_v4, val_main_call2_v3, val_main_call2_v2, val_main_call2_v1, val_main_call2_cst_0, val_main_call2_v0, val_main_call2_cst, val_main_v66, val_main_v65]

end Cert.Rowwise

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«114454_j17308718202950_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.Projection1.lean ====
/-
  The first projection, x · W1, computed on the matrix unit by blocks of 5000 rows, is the whole matrix product.

  The kernel's grid has 20 points; point t stages rows 5000·t … 5000·t + 4999 of x (all 256 columns) and the whole of W1,
  multiplies them into a zero accumulator and writes the [5000, 32] product back as rows 5000·t … of the output.  At the
  ideal values the product's entry (p, q) is Σ_k x(5000·t + p, k) · W1(k, q): the entry (5000·t + p, q) of the host's
  dot_general of the whole arrays (rounding the operands to bf16 is the identity there).  The 20 row blocks cover the
  100000 rows, so the output array ends as that dot_general, whatever it held before.  Everything is stated for ANY
  contents V of the buffers at the region's entry.
-/
import proofs.«114454_j17308718202950_1_alg».proof.Proof.Gen.KernelIdeal.Frame
import proofs.«114454_j17308718202950_1_alg».proof.Proof.Gen.ReferenceIdeal
import proofs.«114454_j17308718202950_1_alg».proof.Proof.LibRowBlocks
import Idealize.ShloMosaic.Lib.Pipeline.Value
import Idealize.ShloMosaic.Lib.ValueIdx

set_option maxRecDepth 16384

noncomputable section

namespace Cert.KernelIdeal.Projection1

open Cert.KernelIdeal Cert.KernelIdeal.Gen
open Idealize.ShloMosaic Idealize.ShloMosaic.TcCoe Idealize.ShloMosaic.ValueIdx Idealize.SL.Sem
open Idealize.ShloMosaic.Pipeline (Dat)

/-- The whole product as the host computes it: the reference's dot_general of the two whole arrays. -/
def product (a : FVec Ideal Cert.ReferenceIdeal.S100000x256 .f32) (w : FVec Ideal Cert.ReferenceIdeal.S256x32 .f32) :
    FVec Ideal Cert.ReferenceIdeal.S100000x32 .f32 :=
  Host.dotGeneral Cert.ReferenceIdeal.dot_S100000x256_S256x32_S100000x32_1_0_0_1_n_n none a w

/-- The printed dimension numbers of the block product are the plain ones, rows × contraction times contraction × columns. -/
theorem blockDims : dot_S5000x256_S256x32_S5000x32_1_0_0_1_n_n = DotDims.plain 5000 256 32 := rfl
/-- So are the reference's, on the whole arrays. -/
theorem wholeDims : Cert.ReferenceIdeal.dot_S100000x256_S256x32_S100000x32_1_0_0_1_n_n = DotDims.plain 100000 256 32 := rfl

/-- One entry of the block product: when row p of the staged block is row r of x and the staged weight is W1,
    the body's value at (p, q) is the whole product's entry (r, q). -/
theorem entry (x0 : Vec Ideal S5000x256 .f32) (x1 : Vec Ideal S256x32 .f32)
    (a : FVec Ideal Cert.ReferenceIdeal.S100000x256 .f32) (w : FVec Ideal Cert.ReferenceIdeal.S256x32 .f32)
    (p : Fin 5000) (q : Fin 32) (r : Fin 100000)
    (hx : ∀ k : Fin 256, x0 (ix2 p k) = a (ix2 r k)) (hw : ∀ k : Fin 256, x1 (ix2 k q) = w (ix2 k q)) :
    k0_pay1 (F := Ideal) x0 x1 (ix2 p q) = product a w (ix2 r q) := by
  unfold k0_pay1 product
  rw [blockDims, wholeDims]
  exact Cert.Lib.RowBlocks.matmul_rows_eq_dotGeneral none none a w _ _ p r q hx hw

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row block of the first operand and of the output is the point's number, the
    second operand's block is always the first (and only) one, and every block starts at column 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t = ((cfg0.win 2).blk t).view.read (Elt Ideal)
      (product (V c main_arg0) (V c main_arg3)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x32) origin]
  obtain ⟨e0, e1, e2, e3, e4, e5⟩ := index_facts t
  have ht : t.val < 20 := lt_of_lt_of_eq t.isLt N_0
  funext j
  obtain ⟨p, q, rfl⟩ : ∃ (p : Fin 5000) (q : Fin 32), j = ix2 p q := ⟨j 0, j 1, eq_ix2 j⟩
  have hr : t.val * 5000 + p.val < 100000 := by have := p.isLt; omega
  show k0_pay1 (F := Ideal) (iblk0 V c 0 t) (iblk0 V c 1 t) (ix2 p q)
    = (product (V c main_arg0) (V c main_arg3)) (((cfg0.win 2).blk t).view.emb (ix2 p q))
  have hout : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 32 + 1 * q.val = q.val; omega
  rw [hout]
  refine entry (iblk0 V c 0 t) (iblk0 V c 1 t) (V c main_arg0) (V c main_arg3) p q ⟨t.val * 5000 + p.val, hr⟩ (fun k => ?_) (fun k => ?_)
  ·
    show V c main_arg0 (((cfg0.win 0).blk t).view.emb (ix2 p k)) = V c main_arg0 (ix2 (⟨t.val * 5000 + p.val, hr⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 32 + 1 * q.val = q.val; omega

/-- An index of the output array is in point t's block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v32).slice (win0_2.rect t)).set ↔ _
  rw [View.set_slice_whole, Rect.mem_set_unit]
  exact Iff.rfl

/-- The 20 blocks of 5000 rows cover the output: row r is in the block of point r / 5000. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have hlt : (i 0).val / 5000 < cfg0.N := by rw [hN]; omega
  obtain ⟨e0, e1, e2, e3, e4, e5⟩ := index_facts ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_block]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 32 ≤ (i 1).val ∧ (i 1).val < win0_2.index ⟨(i 0).val / 5000, hlt⟩ (1 : Fin 2) * 32 + 32; omega

/-- The output array after the region: the whole product of the two arrays the region finds. -/
theorem final (c : Dev nD) :
    (dat0 V c).arrAt 2 cfg0.N = product (V c main_arg0) (V c main_arg3) :=
  (dat0 V c).arrAt_eq_of_cover 2 _ (fun t _ => flushed_eq V c t) (covered)

end Cert.KernelIdeal.Projection1

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.RowsRelu.lean ====
/-
  The bias-and-rectifier block read at one entry.

  One block of 5000 rows of the first layer holds, at (p, q), the entry x(p, q) of the aggregated array and, in its
  one-row operand, the bias b(0, q).  The block computes max(x(p, q) + b(0, q), 0): the two shape casts to the same
  shape change nothing, the bias row broadcast down the rows reads the row at (0, q), and the splat of the zero word
  reads 0.  The whole-array form max(a(r, q) + b(0, q), 0) is the same expression at row r, its bias row spread over
  every row and its zero splat likewise.  So when the block's entry is the array's entry at row r and the two bias
  rows agree at lane q, the two results agree.
-/
import proofs.«114454_j17308718202950_1_alg».proof.Proof.Rowwise
import proofs.«114454_j17308718202950_1_alg».proof.Proof.Gen.KernelIdeal.Skeleton
import proofs.«114454_j17308718202950_1_alg».proof.Proof.LibRows
import Idealize.ShloMosaic.PureOps.Ideal.Laws

noncomputable section

namespace Cert.Rowwise

open Idealize.ShloMosaic Idealize.ShloMosaic.ValueIdx

/-- The block's bias-and-rectifier at (p, q): max(x(p, q) + b(0, q), 0). -/
theorem k1_pay1_apply (x0 : Vec Ideal Cert.KernelIdeal.S5000x32 .f32) (x1 : Vec Ideal Cert.KernelIdeal.S1x32 .f32)
    (p : Fin 5000) (q : Fin 32) :
    Cert.KernelIdeal.Gen.k1_pay1 (F := Ideal) x0 x1 (ix2 p q) = max (x0 (ix2 p q) + x1 (ix2 (0 : Fin 1) q)) 0 := by
  unfold Cert.KernelIdeal.Gen.k1_pay1
  rw [shapeCast_self x0, shapeCast_self x1]
  show max (x0 (ix2 p q) + broadcastTo Cert.KernelIdeal.S5000x32 x1 _ (ix2 p q)) (Ideal.ofBits .f32 0x00000000#32) = _
  rw [Cert.Lib.Rows.broadcastTo_row_apply x1 _ p q, Ideal.ofBits_zero_f32]

/-- The whole-array bias-and-rectifier at (r, q): max(a(r, q) + b(0, q), 0). -/
theorem biasRelu_apply (a : FVec Ideal Cert.ReferenceIdeal.S100000x32 .f32) (b : FVec Ideal Cert.ReferenceIdeal.S1x32 .f32)
    (r : Fin 100000) (q : Fin 32) :
    biasRelu a b (ix2 r q) = max (a (ix2 r q) + b (ix2 (0 : Fin 1) q)) 0 := by
  unfold biasRelu
  rw [maximumf_apply, addf_apply]
  rw [broadcastInDim_apply _ Cert.ReferenceIdeal.Gen.bcast_S1x32_S100000x32_0_1 b (ix2 r q) (ix2 (0 : Fin 1) q) (fun ax => by
      match ax with
      | ⟨0, _⟩ => show (0 : Nat) = if (1 : Nat) = 1 then 0 else r.val; rw [if_pos rfl]
      | ⟨1, _⟩ => show q.val = if (32 : Nat) = 1 then 0 else q.val; rw [if_neg (by decide)])]
  rw [broadcastInDim_apply _ Cert.ReferenceIdeal.Gen.bcast_S_S100000x32
      (constant (F := Ideal) Cert.ReferenceIdeal.S_ .f32 0x00000000#32) (ix2 r q) (fun ax => ax.elim0) (fun ax => ax.elim0)]
  rw [constant_apply, Ideal.ofBits_zero_f32]

/-- A block entry that is the array's entry at row r, under bias rows that agree at lane q, has the array's
    bias-and-rectifier value at (r, q). -/
theorem biasRelu_block (x0 : Vec Ideal Cert.KernelIdeal.S5000x32 .f32) (x1 : Vec Ideal Cert.KernelIdeal.S1x32 .f32)
    (a : FVec Ideal Cert.ReferenceIdeal.S100000x32 .f32) (b : FVec Ideal Cert.ReferenceIdeal.S1x32 .f32)
    (p : Fin 5000) (q : Fin 32) (r : Fin 100000)
    (hx : x0 (ix2 p q) = a (ix2 r q)) (hb : x1 (ix2 (0 : Fin 1) q) = b (ix2 (0 : Fin 1) q)) :
    Cert.KernelIdeal.Gen.k1_pay1 (F := Ideal) x0 x1 (ix2 p q) = biasRelu a b (ix2 r q) := by
  rw [k1_pay1_apply, biasRelu_apply, hx, hb]

end Cert.Rowwise

end
-- ==== Proof.BiasRelu.lean ====
/-
  The bias-and-rectifier kernel, run on blocks of 5000 rows, is the reference's row-wise map on the whole array.

  Point t of the 20-point grid stages rows 5000·t … 5000·t + 4999 of the aggregated [100000, 32] array and the bias as a
  [1, 32] row, computes max(x + b, 0) entry by entry and writes the block back as the same rows of the output.  An
  entry depends only on the entry of the aggregated array at the same place and on the bias of its column, so the block's
  entry (p, q) is the whole-array map's entry (5000·t + p, q).  The 20 row blocks cover the 100000 rows: the output array
  ends as the whole-array map of the two arrays the region finds, for ANY contents V of the buffers at its entry.
-/
import proofs.«114454_j17308718202950_1_alg».proof.Proof.Gen.KernelIdeal.Frame
import proofs.«114454_j17308718202950_1_alg».proof.Proof.Rowwise
import proofs.«114454_j17308718202950_1_alg».proof.Proof.RowsRelu
import Idealize.ShloMosaic.Lib.Pipeline.Value
import Idealize.ShloMosaic.Lib.ValueIdx

set_option maxRecDepth 16384

noncomputable section

namespace Cert.KernelIdeal.BiasRelu

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row block of the first operand and of the output is the point's number, the
    second operand's block is always the first (and only) one, and every block starts at column 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias-and-rectifier map of the arrays the region finds. -/
theorem flushed_eq (c : Dev nD) (t : Fin cfg1.N) :
    (dat1 V c).flushed 2 t = ((cfg1.win 2).blk t).view.read (Elt Ideal)
      (Cert.Rowwise.biasRelu (V c main_v45) (V c main_v46)) := by
  show (cfg1.win 2).cut (grid1.coords t) ((dat1 V c).after 2 t) = _
  rw [after1_2]
  unfold out1_2
  rw [View.canon_unit_zero origin]
  simp only [View.ld_unit_zero (S := S5000x32) origin, View.ld_unit_zero (S := S1x32) origin]
  obtain ⟨e0, e1, e2, e3, e4, e5⟩ := index_facts t
  have ht : t.val < 20 := lt_of_lt_of_eq t.isLt N_1
  funext j
  obtain ⟨p, q, rfl⟩ : ∃ (p : Fin 5000) (q : Fin 32), j = ix2 p q := ⟨j 0, j 1, eq_ix2 j⟩
  have hr : t.val * 5000 + p.val < 100000 := by have := p.isLt; omega
  show k1_pay1 (F := Ideal) (iblk1 V c 0 t) (iblk1 V c 1 t) (ix2 p q)
    = (Cert.Rowwise.biasRelu (V c main_v45) (V c main_v46)) (((cfg1.win 2).blk t).view.emb (ix2 p q))
  have hout : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 32 + 1 * q.val = q.val; omega
  rw [hout]
  refine Cert.Rowwise.biasRelu_block (iblk1 V c 0 t) (iblk1 V c 1 t) (V c main_v45) (V c main_v46) p q ⟨t.val * 5000 + p.val, hr⟩ ?_ ?_
  ·
    show V c main_v45 (((cfg1.win 0).blk t).view.emb (ix2 p q)) = V c main_v45 (ix2 (⟨t.val * 5000 + p.val, hr⟩ : Fin 100000) q)
    refine congrArg (V c main_v45) (funext fun a => Fin.ext ?_)
    match a with
    | ⟨0, _⟩ => show win1_0.index t (0 : Fin 2) * 5000 + 1 * p.val = t.val * 5000 + p.val; omega
    | ⟨1, _⟩ => show win1_0.index t (1 : Fin 2) * 32 + 1 * q.val = q.val; omega
  ·
    show V c main_v46 (((cfg1.win 1).blk t).view.emb (ix2 (0 : Fin 1) q)) = V c main_v46 (ix2 (0 : Fin 1) q)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 32 + 1 * q.val = q.val; omega

/-- An index of the output array is in point t's block iff each coordinate is in the block's range on its axis. -/
theorem mem_block (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v47).slice (win1_2.rect t)).set ↔ _
  rw [View.set_slice_whole, Rect.mem_set_unit]
  exact Iff.rfl

/-- The 20 blocks of 5000 rows cover the output: row r is in the block of point r / 5000. -/
theorem covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  have hlt : (i 0).val / 5000 < cfg1.N := by rw [hN]; omega
  obtain ⟨e0, e1, e2, e3, e4, e5⟩ := index_facts ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_block]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 32 ≤ (i 1).val ∧ (i 1).val < win1_2.index ⟨(i 0).val / 5000, hlt⟩ (1 : Fin 2) * 32 + 32; omega

/-- The output array after the region: the bias-and-rectifier map of the two arrays the region finds. -/
theorem final (c : Dev nD) :
    (dat1 V c).arrAt 2 cfg1.N = Cert.Rowwise.biasRelu (V c main_v45) (V c main_v46) :=
  (dat1 V c).arrAt_eq_of_cover 2 _ (fun t _ => flushed_eq V c t) (covered)

end Cert.KernelIdeal.BiasRelu

end
-- ==== Proof.Projection2.lean ====
/-
  The second projection, h · W2, computed on the matrix unit by blocks of 5000 rows, is the whole matrix product.

  The kernel's grid has 20 points; point t stages rows 5000·t … 5000·t + 4999 of h (all 32 columns) and the whole of W2,
  multiplies them into a zero accumulator and writes the [5000, 16] product back as rows 5000·t … of the output.  At the
  ideal values the product's entry (p, q) is Σ_k h(5000·t + p, k) · W2(k, q): the entry (5000·t + p, q) of the host's
  dot_general of the whole arrays (rounding the operands to bf16 is the identity there, and so is the body's reshape of the block to its own shape).  The 20 row blocks cover the
  100000 rows, so the output array ends as that dot_general, whatever it held before.  Everything is stated for ANY
  contents V of the buffers at the region's entry.
-/
import proofs.«114454_j17308718202950_1_alg».proof.Proof.Gen.KernelIdeal.Frame
import proofs.«114454_j17308718202950_1_alg».proof.Proof.Gen.ReferenceIdeal
import proofs.«114454_j17308718202950_1_alg».proof.Proof.LibRowBlocks
import Idealize.ShloMosaic.Lib.Pipeline.Value
import Idealize.ShloMosaic.Lib.ValueIdx

set_option maxRecDepth 16384

noncomputable section

namespace Cert.KernelIdeal.Projection2

open Cert.KernelIdeal Cert.KernelIdeal.Gen
open Idealize.ShloMosaic Idealize.ShloMosaic.TcCoe Idealize.ShloMosaic.ValueIdx Idealize.SL.Sem
open Idealize.ShloMosaic.Pipeline (Dat)

/-- The whole product as the host computes it: the reference's dot_general of the two whole arrays. -/
def product (a : FVec Ideal Cert.ReferenceIdeal.S100000x32 .f32) (w : FVec Ideal Cert.ReferenceIdeal.S32x16 .f32) :
    FVec Ideal Cert.ReferenceIdeal.S100000x16 .f32 :=
  Host.dotGeneral Cert.ReferenceIdeal.dot_S100000x32_S32x16_S100000x16_1_0_0_1_n_n none a w

/-- The printed dimension numbers of the block product are the plain ones, rows × contraction times contraction × columns. -/
theorem blockDims : dot_S5000x32_S32x16_S5000x16_1_0_0_1_n_n = DotDims.plain 5000 32 16 := rfl
/-- So are the reference's, on the whole arrays. -/
theorem wholeDims : Cert.ReferenceIdeal.dot_S100000x32_S32x16_S100000x16_1_0_0_1_n_n = DotDims.plain 100000 32 16 := rfl

/-- One entry of the block product: when row p of the staged block is row r of h and the staged weight is W2,
    the body's value at (p, q) is the whole product's entry (r, q). -/
theorem entry (x0 : Vec Ideal S5000x32 .f32) (x1 : Vec Ideal S32x16 .f32)
    (a : FVec Ideal Cert.ReferenceIdeal.S100000x32 .f32) (w : FVec Ideal Cert.ReferenceIdeal.S32x16 .f32)
    (p : Fin 5000) (q : Fin 16) (r : Fin 100000)
    (hx : ∀ k : Fin 32, x0 (ix2 p k) = a (ix2 r k)) (hw : ∀ k : Fin 32, x1 (ix2 k q) = w (ix2 k q)) :
    k2_pay1 (F := Ideal) x0 x1 (ix2 p q) = product a w (ix2 r q) := by
  unfold k2_pay1 product
  rw [blockDims, wholeDims, shapeCast_self]
  exact Cert.Lib.RowBlocks.matmul_rows_eq_dotGeneral none none a w _ _ p r q hx hw

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row block of the first operand and of the output is the point's number, the
    second operand's block is always the first (and only) one, and every block starts at column 0. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem flushed_eq (c : Dev nD) (t : Fin cfg2.N) :
    (dat2 V c).flushed 2 t = ((cfg2.win 2).blk t).view.read (Elt Ideal)
      (product (V c main_v47) (V c main_arg5)) := by
  show (cfg2.win 2).cut (grid2.coords t) ((dat2 V c).after 2 t) = _
  rw [after2_2]
  unfold out2_2
  rw [View.canon_unit_zero origin]
  simp only [View.ld_unit_zero (S := S5000x32) origin, View.ld_unit_zero (S := S32x16) origin]
  obtain ⟨e0, e1, e2, e3, e4, e5⟩ := index_facts t
  have ht : t.val < 20 := lt_of_lt_of_eq t.isLt N_2
  funext j
  obtain ⟨p, q, rfl⟩ : ∃ (p : Fin 5000) (q : Fin 16), j = ix2 p q := ⟨j 0, j 1, eq_ix2 j⟩
  have hr : t.val * 5000 + p.val < 100000 := by have := p.isLt; omega
  show k2_pay1 (F := Ideal) (iblk2 V c 0 t) (iblk2 V c 1 t) (ix2 p q)
    = (product (V c main_v47) (V c main_arg5)) (((cfg2.win 2).blk t).view.emb (ix2 p q))
  have hout : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 16 + 1 * q.val = q.val; omega
  rw [hout]
  refine entry (iblk2 V c 0 t) (iblk2 V c 1 t) (V c main_v47) (V c main_arg5) p q ⟨t.val * 5000 + p.val, hr⟩ (fun k => ?_) (fun k => ?_)
  ·
    show V c main_v47 (((cfg2.win 0).blk t).view.emb (ix2 p k)) = V c main_v47 (ix2 (⟨t.val * 5000 + p.val, hr⟩ : Fin 100000) k)
    refine congrArg (V c main_v47) (funext fun a => Fin.ext ?_)
    match a with
    | ⟨0, _⟩ => show win2_0.index t (0 : Fin 2) * 5000 + 1 * p.val = t.val * 5000 + p.val; omega
    | ⟨1, _⟩ => show win2_0.index t (1 : Fin 2) * 32 + 1 * k.val = k.val; omega
  · show V c main_arg5 (((cfg2.win 1).blk t).view.emb (ix2 k q)) = V c main_arg5 (ix2 k q)
    refine congrArg (V c main_arg5) (funext fun a => Fin.ext ?_)
    match a with
    | ⟨0, _⟩ => show win2_1.index t (0 : Fin 2) * 32 + 1 * k.val = k.val; omega
    | ⟨1, _⟩ => show win2_1.index t (1 : Fin 2) * 16 + 1 * q.val = q.val; omega

/-- An index of the output array is in point t's block iff each coordinate is in the block's range on its axis. -/
theorem mem_block (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v48).slice (win2_2.rect t)).set ↔ _
  rw [View.set_slice_whole, Rect.mem_set_unit]
  exact Iff.rfl

/-- The 20 blocks of 5000 rows cover the output: row r is in the block of point r / 5000. -/
theorem covered (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  have hlt : (i 0).val / 5000 < cfg2.N := by rw [hN]; omega
  obtain ⟨e0, e1, e2, e3, e4, e5⟩ := index_facts ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_block]
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 16 ≤ (i 1).val ∧ (i 1).val < win2_2.index ⟨(i 0).val / 5000, hlt⟩ (1 : Fin 2) * 16 + 16; omega

/-- The output array after the region: the whole product of the two arrays the region finds. -/
theorem final (c : Dev nD) :
    (dat2 V c).arrAt 2 cfg2.N = product (V c main_v47) (V c main_arg5) :=
  (dat2 V c).arrAt_eq_of_cover 2 _ (fun t _ => flushed_eq V c t) (covered)

end Cert.KernelIdeal.Projection2

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibHostRows2.lean ====
/-
  The host's reductions over the last axis of a rank-2 array, read at a row, at the ideal values and for any extents.

  A one-operand host reduce with a maximum body over the last axis of an [a, n] array is, at row p, the running
  maximum from the initial value over the n entries of row p; the host's sum over the last axis is, at row p, the
  initial value plus the sum of the n entries of row p.
-/
import Idealize.ShloMosaic.Lib.ValueIdx
import Idealize.ShloMosaic.PureOps.Ideal.Laws

noncomputable section

namespace Cert.Lib.HostRows2

open Idealize.ShloMosaic Idealize.ShloMosaic.ValueIdx

/-- The host's maximum over the last axis of an [a, n] array, from the initial value, read at row p: the running
    maximum over the row. -/
theorem hostMax_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  show (Finset.univ : Finset (Fin n)).fold max (init (Shape.Idx.first hu)) (x ∘ h.lift (ix1 p)) = _
  refine congrArg (fun f => (Finset.univ : Finset (Fin n)).fold max (init (Shape.Idx.first hu)) f) (funext fun k => congrArg x ?_)
  exact funext fun ax => Fin.ext (by match ax with | ⟨0, _⟩ => rfl | ⟨1, _⟩ => rfl)

/-- The host's sum over the last axis of an [a, n] array, from the initial value, read at row p: the initial value
    plus the sum over the row. -/
theorem hostSum_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (_ + ·) (Finset.sum_congr rfl fun k _ => congrArg x ?_)
  exact funext fun ax => Fin.ext (by match ax with | ⟨0, _⟩ => rfl | ⟨1, _⟩ => rfl)

end Cert.Lib.HostRows2

end
-- ==== Proof.RowsSoftmax.lean ====
/-
  The bias-and-log-softmax block read at one entry.

  The log-softmax of a row z of n extended reals is, at lane q,  (z_q − m) − log Σ_k exp(z_k − m),  with m the
  running maximum of the row taken from −∞.

  One block of 5000 rows of the second layer forms z = x + b (the bias row broadcast down the rows), takes each
  row's maximum over the lanes, keeps it as a column, spreads it back over the lanes and subtracts; exponentiates,
  sums over the lanes, keeps the sum as a column, takes its logarithm, spreads it over the lanes and subtracts.
  Read at (p, q) this is the log-softmax of row p of z at lane q.

  The whole-array form does the same with the host's operations: the maximum over the last axis from −∞, taken once
  more against −∞ (which changes nothing, the running maximum being at least its initial value), spread over the
  lanes through a column; the host's exponential and logarithm, which at the ideal values are the same functions
  as the block's; the sum over the last axis from 0.  Read at (r, q) it is the log-softmax of row r at lane q.

  So when the block's row p is the array's row r and the bias rows agree, the two results agree at every lane.
-/
import proofs.«114454_j17308718202950_1_alg».proof.Proof.Rowwise
import proofs.«114454_j17308718202950_1_alg».proof.Proof.Gen.KernelIdeal.Skeleton
import proofs.«114454_j17308718202950_1_alg».proof.Proof.LibRows
import proofs.«114454_j17308718202950_1_alg».proof.Proof.LibColumns
import proofs.«114454_j17308718202950_1_alg».proof.Proof.LibHostColumns
import proofs.«114454_j17308718202950_1_alg».proof.Proof.LibHostRows2
import Idealize.ShloMosaic.PureOps.Ideal.Laws

noncomputable section

namespace Cert.Rowwise

open Idealize.ShloMosaic Idealize.ShloMosaic.ValueIdx
open scoped BigOperators

/-- The running maximum of a row, taken from the value of the word 0xFF800000 (−∞). -/
def rowMaxOf {n : ℕ} (z : Fin n → EReal) : EReal :=
  (Finset.univ : Finset (Fin n)).fold max (Ideal.ofBits .f32 0xFF800000#32) z

/-- The log-softmax of a row at lane q: (z_q − m) − log Σ_k exp(z_k − m), m the row's running maximum. -/
def lsmRow {n : ℕ} (z : Fin n → EReal) (q : Fin n) : EReal :=
  (z q - rowMaxOf z) - Ideal.log (∑ k : Fin n, Ideal.exp (z k - rowMaxOf z))

/-! ## The block's side -/

/-- The lane-wise log-softmax of an [a, b] array as a block computes it (lane maximum, column, spread, subtract,
    exponential, lane sum, column, logarithm, spread, subtract), read at (p, q): the log-softmax of row p at lane q. -/
theorem laneLogSoftmax_apply {a b : ℕ} (z : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin a) (q : Fin b) :
    subf
        (subf z (broadcastTo ⟨2, ![a, b]⟩
          (shapeCast ⟨2, ![a, 1]⟩ (multiReduction .maximumf [1] ⟨1, ![a]⟩ z 0xFF800000#32 hR hφ hmax) hC) hB))
        (broadcastTo ⟨2, ![a, b]⟩
          (log (shapeCast ⟨2, ![a, 1]⟩
            (multiReduction .add [1] ⟨1, ![a]⟩
              (exp (subf z (broadcastTo ⟨2, ![a, b]⟩
                (shapeCast ⟨2, ![a, 1]⟩ (multiReduction .maximumf [1] ⟨1, ![a]⟩ z 0xFF800000#32 hR hφ hmax) hC) hB)))
              0x00000000#32 hR hφ hadd) hC)) hB) (ix2 p q)
      = lsmRow (fun k => z (ix2 p k)) q := by
  -- each entry less its row's maximum
  have hs : ∀ k : Fin b,
      subf z (broadcastTo ⟨2, ![a, b]⟩
        (shapeCast ⟨2, ![a, 1]⟩ (multiReduction .maximumf [1] ⟨1, ![a]⟩ z 0xFF800000#32 hR hφ hmax) hC) hB) (ix2 p k)
        = z (ix2 p k) - rowMaxOf (fun k => z (ix2 p k)) := fun k => by
    show z (ix2 p k) - broadcastTo ⟨2, ![a, b]⟩
        (shapeCast ⟨2, ![a, 1]⟩ (multiReduction .maximumf [1] ⟨1, ![a]⟩ z 0xFF800000#32 hR hφ hmax) hC) hB (ix2 p k) = _
    rw [Cert.Columns.broadcastTo_a1_ab_apply _ hB p k (0 : Fin 1), Cert.Columns.shapeCast_a_a1_apply _ hC p (0 : Fin 1),
      Cert.Columns.laneMax_apply z _ hR hφ hmax p]
    rfl
  generalize subf z (broadcastTo ⟨2, ![a, b]⟩
    (shapeCast ⟨2, ![a, 1]⟩ (multiReduction .maximumf [1] ⟨1, ![a]⟩ z 0xFF800000#32 hR hφ hmax) hC) hB) = s at hs ⊢
  show s (ix2 p q) - broadcastTo ⟨2, ![a, b]⟩
      (log (shapeCast ⟨2, ![a, 1]⟩ (multiReduction .add [1] ⟨1, ![a]⟩ (exp s) 0x00000000#32 hR hφ hadd) hC)) hB (ix2 p q) = _
  rw [Cert.Columns.broadcastTo_a1_ab_apply _ hB p q (0 : Fin 1)]
  show s (ix2 p q) - Ideal.log (shapeCast ⟨2, ![a, 1]⟩
      (multiReduction .add [1] ⟨1, ![a]⟩ (exp s) 0x00000000#32 hR hφ hadd) hC (ix2 p (0 : Fin 1))) = _
  rw [Cert.Columns.shapeCast_a_a1_apply _ hC p (0 : Fin 1), Cert.Columns.laneSum_apply (exp s) _ hR hφ hadd p, hs q]
  refine congrArg (fun t => _ - Ideal.log t) (Finset.sum_congr rfl fun k _ => ?_)
  show Ideal.exp (s (ix2 p k)) = _
  rw [hs k]

/-- The block's bias-and-log-softmax at (p, q): the log-softmax of the row x(p, ·) + b(0, ·) at lane q. -/
theorem k3_pay1_apply (x0 : Vec Ideal Cert.KernelIdeal.S5000x16 .f32) (x1 : Vec Ideal Cert.KernelIdeal.S1x16 .f32)
    (p : Fin 5000) (q : Fin 16) :
    Cert.KernelIdeal.Gen.k3_pay1 (F := Ideal) x0 x1 (ix2 p q)
      = lsmRow (fun k => x0 (ix2 p k) + x1 (ix2 (0 : Fin 1) k)) q := by
  unfold Cert.KernelIdeal.Gen.k3_pay1
  rw [shapeCast_self x0, shapeCast_self x1]
  refine (laneLogSoftmax_apply
    (addf x0 (broadcastTo Cert.KernelIdeal.S5000x16 x1 Cert.KernelIdeal.Gen.broadcasts_S1x16_S5000x16))
    Cert.KernelIdeal.Gen.reduces_S5000x16_S5000 Cert.KernelIdeal.Gen.shapeCasts_S5000_S5000x1
    Cert.KernelIdeal.Gen.broadcasts_S5000x1_S5000x16 (.inl rfl) rfl rfl p q).trans ?_
  refine congrArg (fun f => lsmRow f q) (funext fun k => ?_)
  show x0 (ix2 p k) + broadcastTo Cert.KernelIdeal.S5000x16 x1 _ (ix2 p k) = _
  rw [Cert.Lib.Rows.broadcastTo_row_apply x1 _ p k]

/-! ## The whole array's side -/

open Cert.ReferenceIdeal Cert.ReferenceIdeal.Gen

/-- The host's exponential at an index, at the ideal values. -/
theorem hostExp_apply {s : Shape} {φ : FTy} (x : FVec Ideal s φ) (i : s.Idx) : Host.exp x i = Ideal.exp (x i) := rfl

/-- The host's logarithm at an index, at the ideal values. -/
theorem hostLog_apply {s : Shape} {φ : FTy} (x : FVec Ideal s φ) (i : s.Idx) : Host.log x i = Ideal.log (x i) := rfl

/-- The biased array at (r, k): a(r, k) + b(0, k). -/
theorem biased_apply (a : FVec Ideal S100000x16 .f32) (b : FVec Ideal S1x16 .f32) (r : Fin 100000) (k : Fin 16) :
    biased a b (ix2 r k) = a (ix2 r k) + b (ix2 (0 : Fin 1) k) := by
  unfold biased
  rw [addf_apply]
  rw [broadcastInDim_apply _ bcast_S1x16_S100000x16_0_1 b (ix2 r k) (ix2 (0 : Fin 1) k) (fun ax => by
    match ax with
    | ⟨0, _⟩ => show (0 : Nat) = if (1 : Nat) = 1 then 0 else r.val; rw [if_pos rfl]
    | ⟨1, _⟩ => show k.val = if (16 : Nat) = 1 then 0 else k.val; rw [if_neg (by decide)])]

/-- Each row's maximum at row r: the running maximum of the row from −∞ (the second maximum against −∞ is absorbed,
    the running maximum being at least its initial value). -/
theorem rowMax_apply (z : FVec Ideal S100000x16 .f32) (r : Fin 100000) :
    rowMax z (ix1 r) = rowMaxOf (fun k => z (ix2 r k)) := by
  unfold rowMax
  rw [maximumf_apply]
  rw [Cert.Lib.HostRows2.hostMax_last2_apply z (constant (F := Ideal) S_ .f32 0xFF800000#32)
    reducesTo_S100000x16_S100000_d1 (by decide) h_S_ r]
  rw [broadcastInDim_apply _ bcast_S_S100000 (constant (F := Ideal) S_ .f32 0xFF800000#32) (ix1 r)
    (fun ax => ax.elim0) (fun ax => ax.elim0)]
  rw [constant_apply, constant_apply]
  exact max_eq_right ((Finset.le_fold_max _).2 (Or.inl le_rfl))

/-- Each entry less its row's maximum, at (r, k). -/
theorem shifted_apply (z : FVec Ideal S100000x16 .f32) (r : Fin 100000) (k : Fin 16) :
    shifted z (ix2 r k) = z (ix2 r k) - rowMaxOf (fun k => z (ix2 r k)) := by
  unfold shifted
  rw [subf_apply]
  rw [Cert.Lib.HostColumns.bcast_col_lanes_apply _ bcast_S100000x1_S100000x16_0_1 r k (0 : Fin 1),
    Cert.Lib.HostColumns.bcast_vec_col_apply _ bcast_S100000_S100000x1_0 r (0 : Fin 1), rowMax_apply z r]

/-- The logarithm of the row's sum of exponentials of the shifted entries, at (r, 0). -/
theorem logSumExp_apply (z : FVec Ideal S100000x16 .f32) (r : Fin 100000) :
    logSumExp z (ix2 r (0 : Fin 1))
      = Ideal.log (∑ k : Fin 16, Ideal.exp (z (ix2 r k) - rowMaxOf (fun k => z (ix2 r k)))) := by
  unfold logSumExp
  rw [hostLog_apply]
  rw [Cert.Lib.HostColumns.bcast_vec_col_apply _ bcast_S100000_S100000x1_0 r (0 : Fin 1)]
  rw [Cert.Lib.HostRows2.hostSum_last2_apply (Host.exp (shifted z)) (constant (F := Ideal) S_ .f32 0x00000000#32)
      reducesTo_S100000x16_S100000_d1 (by decide) h_S_ r]
  rw [constant_apply, Ideal.ofBits_zero_f32, zero_add]
  refine congrArg Ideal.log (Finset.sum_congr rfl fun k _ => ?_)
  rw [hostExp_apply, shifted_apply z r k]

/-- The whole array's log-softmax at (r, q): the log-softmax of row r at lane q. -/
theorem logSoftmax_apply (z : FVec Ideal S100000x16 .f32) (r : Fin 100000) (q : Fin 16) :
    logSoftmax z (ix2 r q) = lsmRow (fun k => z (ix2 r k)) q := by
  unfold logSoftmax
  rw [subf_apply]
  rw [Cert.Lib.HostColumns.bcast_col_lanes_apply _ bcast_S100000x1_S100000x16_0_1 r q (0 : Fin 1),
    logSumExp_apply z r, shifted_apply z r q]
  rfl

/-! ## The two sides together -/

/-- A block row that is the array's row r, under bias rows that agree, has the array's bias-and-log-softmax values
    along row r. -/
theorem logSoftmax_block (x0 : Vec Ideal Cert.KernelIdeal.S5000x16 .f32) (x1 : Vec Ideal Cert.KernelIdeal.S1x16 .f32)
    (a : FVec Ideal Cert.ReferenceIdeal.S100000x16 .f32) (b : FVec Ideal Cert.ReferenceIdeal.S1x16 .f32)
    (p : Fin 5000) (q : Fin 16) (r : Fin 100000)
    (hx : ∀ k : Fin 16, x0 (ix2 p k) = a (ix2 r k)) (hb : ∀ k : Fin 16, x1 (ix2 (0 : Fin 1) k) = b (ix2 (0 : Fin 1) k)) :
    Cert.KernelIdeal.Gen.k3_pay1 (F := Ideal) x0 x1 (ix2 p q) = logSoftmax (biased a b) (ix2 r q) := by
  rw [k3_pay1_apply, logSoftmax_apply]
  refine congrArg (fun f => lsmRow f q) (funext fun k => ?_)
  rw [biased_apply a b r k, hx k, hb k]

end Cert.Rowwise

end
-- ==== Proof.LogSoftmax.lean ====
/-
  The bias-and-log-softmax kernel, run on blocks of 5000 rows, is the reference's row-wise map on the whole array.

  Point t of the 20-point grid stages rows 5000·t … 5000·t + 4999 of the aggregated [100000, 16] array and the bias as a
  [1, 16] row; with z = x + b it computes, row by row, (z − m) − log Σ_k exp(z_k − m), m the row's maximum, and writes the
  block back as the same rows of the output.  An entry depends only on its own row of the aggregated array and on the
  bias, so the block's entry (p, q) is the whole-array map's entry (5000·t + p, q).  The 20 row blocks cover the 100000
  rows: the output array ends as the whole-array map of the two arrays the region finds, for ANY contents V of the buffers
  at its entry.
-/
import proofs.«114454_j17308718202950_1_alg».proof.Proof.Gen.KernelIdeal.Frame
import proofs.«114454_j17308718202950_1_alg».proof.Proof.Rowwise
import proofs.«114454_j17308718202950_1_alg».proof.Proof.RowsSoftmax
import Idealize.ShloMosaic.Lib.Pipeline.Value
import Idealize.ShloMosaic.Lib.ValueIdx

set_option maxRecDepth 16384

noncomputable section

namespace Cert.KernelIdeal.LogSoftmax

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row block of the first operand and of the output is the point's number, the
    second operand's block is always the first (and only) one, and every block starts at column 0. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias-and-log-softmax map of the arrays the region finds. -/
theorem flushed_eq (c : Dev nD) (t : Fin cfg3.N) :
    (dat3 V c).flushed 2 t = ((cfg3.win 2).blk t).view.read (Elt Ideal)
      (Cert.Rowwise.logSoftmax (Cert.Rowwise.biased (V c main_v61) (V c main_v62))) := by
  show (cfg3.win 2).cut (grid3.coords t) ((dat3 V c).after 2 t) = _
  rw [after3_2]
  unfold out3_2
  rw [View.canon_unit_zero origin]
  simp only [View.ld_unit_zero (S := S5000x16) origin, View.ld_unit_zero (S := S1x16) origin]
  obtain ⟨e0, e1, e2, e3, e4, e5⟩ := index_facts t
  have ht : t.val < 20 := lt_of_lt_of_eq t.isLt N_3
  funext j
  obtain ⟨p, q, rfl⟩ : ∃ (p : Fin 5000) (q : Fin 16), j = ix2 p q := ⟨j 0, j 1, eq_ix2 j⟩
  have hr : t.val * 5000 + p.val < 100000 := by have := p.isLt; omega
  show k3_pay1 (F := Ideal) (iblk3 V c 0 t) (iblk3 V c 1 t) (ix2 p q)
    = (Cert.Rowwise.logSoftmax (Cert.Rowwise.biased (V c main_v61) (V c main_v62))) (((cfg3.win 2).blk t).view.emb (ix2 p q))
  have hout : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 16 + 1 * q.val = q.val; omega
  rw [hout]
  refine Cert.Rowwise.logSoftmax_block (iblk3 V c 0 t) (iblk3 V c 1 t) (V c main_v61) (V c main_v62) p q ⟨t.val * 5000 + p.val, hr⟩ (fun k => ?_) (fun k => ?_)
  ·
    show V c main_v61 (((cfg3.win 0).blk t).view.emb (ix2 p k)) = V c main_v61 (ix2 (⟨t.val * 5000 + p.val, hr⟩ : Fin 100000) k)
    refine congrArg (V c main_v61) (funext fun a => Fin.ext ?_)
    match a with
    | ⟨0, _⟩ => show win3_0.index t (0 : Fin 2) * 5000 + 1 * p.val = t.val * 5000 + p.val; omega
    | ⟨1, _⟩ => show win3_0.index t (1 : Fin 2) * 16 + 1 * k.val = k.val; omega
  ·
    show V c main_v62 (((cfg3.win 1).blk t).view.emb (ix2 (0 : Fin 1) k)) = V c main_v62 (ix2 (0 : Fin 1) k)
    refine congrArg (V c main_v62) (funext fun a => Fin.ext ?_)
    match a with
    | ⟨0, _⟩ => show win3_1.index t (0 : Fin 2) * 1 + 1 * 0 = 0; omega
    | ⟨1, _⟩ => show win3_1.index t (1 : Fin 2) * 16 + 1 * k.val = k.val; omega

/-- An index of the output array is in point t's block iff each coordinate is in the block's range on its axis. -/
theorem mem_block (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v63).slice (win3_2.rect t)).set ↔ _
  rw [View.set_slice_whole, Rect.mem_set_unit]
  exact Iff.rfl

/-- The 20 blocks of 5000 rows cover the output: row r is in the block of point r / 5000. -/
theorem covered (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 20 := N_3
  have hlt : (i 0).val / 5000 < cfg3.N := by rw [hN]; omega
  obtain ⟨e0, e1, e2, e3, e4, e5⟩ := index_facts ⟨(i 0).val / 5000, hlt⟩
  have e4' : win3_2.index ⟨(i 0).val / 5000, hlt⟩ (0 : Fin 2) = (i 0).val / 5000 := e4
  refine ⟨⟨(i 0).val / 5000, hlt⟩, flush3_2 _, ?_⟩
  rw [mem_block]
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 16 ≤ (i 1).val ∧ (i 1).val < win3_2.index ⟨(i 0).val / 5000, hlt⟩ (1 : Fin 2) * 16 + 16; omega

/-- The output array after the region: the bias-and-log-softmax map of the two arrays the region finds. -/
theorem final (c : Dev nD) :
    (dat3 V c).arrAt 2 cfg3.N = Cert.Rowwise.logSoftmax (Cert.Rowwise.biased (V c main_v61) (V c main_v62)) :=
  (dat3 V c).arrAt_eq_of_cover 2 _ (fun t _ => flushed_eq V c t) (covered)

end Cert.KernelIdeal.LogSoftmax

end
-- ==== Proof.LibRowForms.lean ====
/-
  A vector laid out as a row in two ways.

  A vector [C] becomes the row [1, C] either by a reshape or by a broadcast onto axis 1: both read, at (0, c),
  the vector at c, so they are the same row.
-/
import proofs.«114454_j17308718202950_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.Fold.lean ====
/-
  The idealized kernel's fold through its nine segments, read at the buffers that matter, in the reference's own terms.

  The kernel's host stretches are, operation for operation, the reference's: the edge lists with a self loop appended at
  every node, the degrees by a scatter-add of the edge weights, the normalisation d^(-1/2)[row] · w · d^(-1/2)[col], and after each
  projection the gather of the projected rows at the sources, the scaling by the normalisation and the scatter-add at the
  targets.  So each buffer a kernel region reads holds a stage of the reference: the first projection reads x and W1 as
  launched and leaves the reference's x · W1; the aggregation of that is the reference's first aggregation; the
  bias-and-rectifier kernel leaves the reference's hidden layer (the bias reshaped to a row is the bias broadcast to a row);
  the second projection leaves h · W2; its aggregation is the reference's second aggregation; and the last kernel leaves
  the reference's log-softmax.  Between regions a buffer no segment writes keeps what it held.  The stretches before the
  first projection are read for any float values, so that the scatter-add and the gathers stay opaque operations there.
-/
import proofs.«114454_j17308718202950_1_alg».proof.Proof.Gen.KernelIdeal.Frame
import proofs.«114454_j17308718202950_1_alg».proof.Proof.ReadP
import proofs.«114454_j17308718202950_1_alg».proof.Proof.Rowwise
import proofs.«114454_j17308718202950_1_alg».proof.Proof.Stages
import proofs.«114454_j17308718202950_1_alg».proof.Proof.Projection1
import proofs.«114454_j17308718202950_1_alg».proof.Proof.BiasRelu
import proofs.«114454_j17308718202950_1_alg».proof.Proof.Projection2
import proofs.«114454_j17308718202950_1_alg».proof.Proof.LogSoftmax
import proofs.«114454_j17308718202950_1_alg».proof.Proof.LibRowForms
import proofs.«114454_j17308718202950_1_alg».proof.Proof.LibAfterAppend

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

/-- The three lists over the edges — sources, targets, weights — each with the self loops appended: the first ten
    operations of the kernel's first stretch. -/
abbrev listOps {F : FTy → Type} [FloatOps F] : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_v4 (iotaInDim S100000 32 0),
    StableHlo.binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]

/-- The rest of that stretch: the degrees by a scatter-add of the weights at the targets, their comparison with 0 and
    their inverse square roots. -/
abbrev degreeOps {F : FTy → Type} [FloatOps F] : List (HloOp τ sig (Elt F)) :=
  [ StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32) ]

theorem hostOps0_split {F : FTy → Type} [FloatOps F] : (hostOps0 : List (HloOp τ sig (Elt F))) = listOps ++ degreeOps := rfl

/-- Reads a buffer through a literal stretch of host operations: each operation's result at its own buffer is its
    function's value, at any other buffer what was there. One simp pass; it does not look inside the operand list of a
    concatenation. -/
macro "read_stretch" : tactic =>
  `(tactic| (dsimp only [listOps, degreeOps, hostOps0_1, hostOps0_2, hostOps1, hostOps3]; after_results_simp))
/-- The same by rewriting, operation by operation: slower, and it does go through a concatenation's operands. -/
macro "read_lists" : tactic =>
  `(tactic| (dsimp only [listOps]; after_results))

section Stretches
variable {F : FTy → Type} [FloatOps F] (W : Valuation τ sig (Elt F))

theorem lists_v5 : after listOps W (Proc.devRef .tc main_v5) = Cert.ReferenceIdeal.ReadP.val_main_v5 (F := F) (W (Proc.devRef .tc main_arg1)) := by
  read_lists <;> rfl
theorem lists_v6 : after listOps W (Proc.devRef .tc main_v6) = Cert.ReferenceIdeal.ReadP.val_main_v6 (F := F) (W (Proc.devRef .tc main_arg1)) := by
  read_lists <;> rfl
theorem lists_v8 : after listOps W (Proc.devRef .tc main_v8) = Cert.ReferenceIdeal.ReadP.val_main_v8 (F := F) (W (Proc.devRef .tc main_arg2)) := by
  read_lists <;> rfl
theorem lists_arg0 : after listOps W (Proc.devRef .tc main_arg0) = W (Proc.devRef .tc main_arg0) := by
  read_stretch <;> rfl
theorem lists_arg3 : after listOps W (Proc.devRef .tc main_arg3) = W (Proc.devRef .tc main_arg3) := by
  read_stretch <;> rfl
theorem lists_arg4 : after listOps W (Proc.devRef .tc main_arg4) = W (Proc.devRef .tc main_arg4) := by
  read_stretch <;> rfl
theorem lists_arg5 : after listOps W (Proc.devRef .tc main_arg5) = W (Proc.devRef .tc main_arg5) := by
  read_stretch <;> rfl
theorem lists_arg6 : after listOps W (Proc.devRef .tc main_arg6) = W (Proc.devRef .tc main_arg6) := by
  read_stretch <;> rfl

/-- The normalisation of every edge and self loop, from the three lists. -/
theorem norm_v31 (x1 : (⟨S2x3200000, .i32⟩ : BufTy).Contents (Elt F)) (x2 : (⟨S3200000, .f32⟩ : BufTy).Contents (Elt F))
    (h5 : W (Proc.devRef .tc main_v5) = Cert.ReferenceIdeal.ReadP.val_main_v5 (F := F) x1) (h6 : W (Proc.devRef .tc main_v6) = Cert.ReferenceIdeal.ReadP.val_main_v6 (F := F) x1)
    (h8 : W (Proc.devRef .tc main_v8) = Cert.ReferenceIdeal.ReadP.val_main_v8 (F := F) x2) :
    after hostOps0_2 (after hostOps0_1 (after degreeOps W)) (Proc.devRef .tc main_v31) = Cert.ReferenceIdeal.ReadP.val_main_v31 (F := F) x1 x2 := by
  read_stretch
  rw [h5, h6, h8]
  rfl
theorem norm_v5 : after hostOps0_2 (after hostOps0_1 (after degreeOps W)) (Proc.devRef .tc main_v5) = W (Proc.devRef .tc main_v5) := by
  read_stretch <;> rfl
theorem norm_v6 : after hostOps0_2 (after hostOps0_1 (after degreeOps W)) (Proc.devRef .tc main_v6) = W (Proc.devRef .tc main_v6) := by
  read_stretch <;> rfl
theorem norm_arg0 : after hostOps0_2 (after hostOps0_1 (after degreeOps W)) (Proc.devRef .tc main_arg0) = W (Proc.devRef .tc main_arg0) := by
  read_stretch <;> rfl
theorem norm_arg3 : after hostOps0_2 (after hostOps0_1 (after degreeOps W)) (Proc.devRef .tc main_arg3) = W (Proc.devRef .tc main_arg3) := by
  read_stretch <;> rfl
theorem norm_arg4 : after hostOps0_2 (after hostOps0_1 (after degreeOps W)) (Proc.devRef .tc main_arg4) = W (Proc.devRef .tc main_arg4) := by
  read_stretch <;> rfl
theorem norm_arg5 : after hostOps0_2 (after hostOps0_1 (after degreeOps W)) (Proc.devRef .tc main_arg5) = W (Proc.devRef .tc main_arg5) := by
  read_stretch <;> rfl
theorem norm_arg6 : after hostOps0_2 (after hostOps0_1 (after degreeOps W)) (Proc.devRef .tc main_arg6) = W (Proc.devRef .tc main_arg6) := by
  read_stretch <;> rfl

end Stretches

variable (m : (ℓ : Loc nD τ sig) → Buf (Elt Ideal) ℓ) (ρ : Dev nD → PrngReg) (c : Dev nD)

/-! ## Before the first projection: the arguments, the edge lists with self loops, the normalisation -/

/-- The contents the first projection is entered with: the lists, then the degrees and the normalisation. -/
theorem W3_eq : W3 m ρ c = after hostOps0_2 (after hostOps0_1 (after degreeOps (after listOps (W0 m ρ c)))) := by
  show after hostOps0_2 (after hostOps0_1 (after hostOps0 (W0 m ρ c))) = _
  rw [hostOps0_split, Cert.LibAfterAppend.after_append]

theorem W3_arg0 : W3 m ρ c (Proc.devRef .tc main_arg0) = (m ((c : Thread nD τ).loc main_arg0)) := by
  rw [W3_eq]; exact (norm_arg0 _).trans (lists_arg0 _)
theorem W3_arg3 : W3 m ρ c (Proc.devRef .tc main_arg3) = (m ((c : Thread nD τ).loc main_arg3)) := by
  rw [W3_eq]; exact (norm_arg3 _).trans (lists_arg3 _)
theorem W3_arg4 : W3 m ρ c (Proc.devRef .tc main_arg4) = (m ((c : Thread nD τ).loc main_arg4)) := by
  rw [W3_eq]; exact (norm_arg4 _).trans (lists_arg4 _)
theorem W3_arg5 : W3 m ρ c (Proc.devRef .tc main_arg5) = (m ((c : Thread nD τ).loc main_arg5)) := by
  rw [W3_eq]; exact (norm_arg5 _).trans (lists_arg5 _)
theorem W3_arg6 : W3 m ρ c (Proc.devRef .tc main_arg6) = (m ((c : Thread nD τ).loc main_arg6)) := by
  rw [W3_eq]; exact (norm_arg6 _).trans (lists_arg6 _)

/-- The source list: the edges' first row with every node appended. -/
theorem W3_v5 : W3 m ρ c (Proc.devRef .tc main_v5) = Cert.ReferenceIdeal.ReadP.val_main_v5 (F := Ideal) (m ((c : Thread nD τ).loc main_arg1)) := by
  rw [W3_eq]; exact (norm_v5 _).trans (lists_v5 _)

/-- The target list: the edges' second row with every node appended. -/
theorem W3_v6 : W3 m ρ c (Proc.devRef .tc main_v6) = Cert.ReferenceIdeal.ReadP.val_main_v6 (F := Ideal) (m ((c : Thread nD τ).loc main_arg1)) := by
  rw [W3_eq]; exact (norm_v6 _).trans (lists_v6 _)

/-- The symmetric normalisation of every edge and self loop. -/
theorem W3_v31 : W3 m ρ c (Proc.devRef .tc main_v31) = Cert.ReferenceIdeal.ReadP.val_main_v31 (F := Ideal) (m ((c : Thread nD τ).loc main_arg1)) (m ((c : Thread nD τ).loc main_arg2)) := by
  rw [W3_eq]; exact norm_v31 _ _ _ (lists_v5 _) (lists_v6 _) (lists_v8 _)

/-! ## The first projection and its aggregation -/

theorem W4_v32 : W4 m ρ c (Proc.devRef .tc main_v32) = Cert.ReferenceIdeal.ReadP.val_main_v32 (F := Ideal) (m ((c : Thread nD τ).loc main_arg0)) (m ((c : Thread nD τ).loc main_arg3)) :=
  (W4_arr m ρ c 2).trans ((Cert.KernelIdeal.Projection1.final (V3 m ρ) c).trans (by
    rw [show V3 m ρ c main_arg0 = (m ((c : Thread nD τ).loc main_arg0)) from W3_arg0 m ρ c, show V3 m ρ c main_arg3 = (m ((c : Thread nD τ).loc main_arg3)) from W3_arg3 m ρ c]; rfl))
theorem W4_v5 : W4 m ρ c (Proc.devRef .tc main_v5) = Cert.ReferenceIdeal.ReadP.val_main_v5 (F := Ideal) (m ((c : Thread nD τ).loc main_arg1)) := (W4_of_ne m ρ c main_v5 (by decide)).trans (W3_v5 m ρ c)
theorem W4_v6 : W4 m ρ c (Proc.devRef .tc main_v6) = Cert.ReferenceIdeal.ReadP.val_main_v6 (F := Ideal) (m ((c : Thread nD τ).loc main_arg1)) := (W4_of_ne m ρ c main_v6 (by decide)).trans (W3_v6 m ρ c)
theorem W4_v31 : W4 m ρ c (Proc.devRef .tc main_v31) = Cert.ReferenceIdeal.ReadP.val_main_v31 (F := Ideal) (m ((c : Thread nD τ).loc main_arg1)) (m ((c : Thread nD τ).loc main_arg2)) := (W4_of_ne m ρ c main_v31 (by decide)).trans (W3_v31 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)

/-- The first aggregation: the projected rows gathered at the sources, scaled, scatter-added at the targets. -/
theorem W5_v45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v45) = _
  read_stretch
  rw [W4_v5 m ρ c, W4_v6 m ρ c, W4_v31 m ρ c, W4_v32 m ρ c]
  rfl

/-- The first bias laid out as a row: the kernel reshapes it, the reference broadcasts it onto axis 1. -/
theorem W5_v46 : W5 m ρ c (Proc.devRef .tc main_v46) = Cert.ReferenceIdeal.ReadP.val_main_v46 (F := Ideal) (m ((c : Thread nD τ).loc main_arg4)) := by
  show StableHlo.after hostOps1 (W4 m ρ c) (Proc.devRef .tc main_v46) = _
  read_stretch
  rw [W4_arg4 m ρ c]
  exact (Cert.Lib.RowForms.broadcastInDim_row_eq_shapeCast (C := 32) (m ((c : Thread nD τ).loc main_arg4)) Cert.ReferenceIdeal.Gen.bcast_S32_S1x32_1 shapeCasts_S32_S1x32).symm
theorem W5_v5 : W5 m ρ c (Proc.devRef .tc main_v5) = Cert.ReferenceIdeal.ReadP.val_main_v5 (F := Ideal) (m ((c : Thread nD τ).loc main_arg1)) := by
  show StableHlo.after hostOps1 (W4 m ρ c) (Proc.devRef .tc main_v5) = _
  read_stretch
  exact W4_v5 m ρ c
theorem W5_v6 : W5 m ρ c (Proc.devRef .tc main_v6) = Cert.ReferenceIdeal.ReadP.val_main_v6 (F := Ideal) (m ((c : Thread nD τ).loc main_arg1)) := by
  show StableHlo.after hostOps1 (W4 m ρ c) (Proc.devRef .tc main_v6) = _
  read_stretch
  exact W4_v6 m ρ c
theorem W5_v31 : W5 m ρ c (Proc.devRef .tc main_v31) = Cert.ReferenceIdeal.ReadP.val_main_v31 (F := Ideal) (m ((c : Thread nD τ).loc main_arg1)) (m ((c : Thread nD τ).loc main_arg2)) := by
  show StableHlo.after hostOps1 (W4 m ρ c) (Proc.devRef .tc main_v31) = _
  read_stretch
  exact W4_v31 m ρ c
theorem W5_arg5 : W5 m ρ c (Proc.devRef .tc main_arg5) = (m ((c : Thread nD τ).loc main_arg5)) := by
  show StableHlo.after hostOps1 (W4 m ρ c) (Proc.devRef .tc main_arg5) = _
  read_stretch
  exact W4_arg5 m ρ c
theorem W5_arg6 : W5 m ρ c (Proc.devRef .tc main_arg6) = (m ((c : Thread nD τ).loc main_arg6)) := by
  show StableHlo.after hostOps1 (W4 m ρ c) (Proc.devRef .tc main_arg6) = _
  read_stretch
  exact W4_arg6 m ρ c

/-! ## The hidden layer, the second projection and its aggregation -/

theorem W6_v47 : W6 m ρ c (Proc.devRef .tc main_v47) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans ((Cert.KernelIdeal.BiasRelu.final (V5 m ρ) c).trans (by
    rw [show V5 m ρ c main_v45 = _ from W5_v45 m ρ c, show V5 m ρ c main_v46 = _ from W5_v46 m ρ c]
    exact Cert.Rowwise.biasRelu_stage _ _ _ _ _))
theorem W6_v5 : W6 m ρ c (Proc.devRef .tc main_v5) = Cert.ReferenceIdeal.ReadP.val_main_v5 (F := Ideal) (m ((c : Thread nD τ).loc main_arg1)) := (W6_of_ne m ρ c main_v5 (by decide)).trans (W5_v5 m ρ c)
theorem W6_v6 : W6 m ρ c (Proc.devRef .tc main_v6) = Cert.ReferenceIdeal.ReadP.val_main_v6 (F := Ideal) (m ((c : Thread nD τ).loc main_arg1)) := (W6_of_ne m ρ c main_v6 (by decide)).trans (W5_v6 m ρ c)
theorem W6_v31 : W6 m ρ c (Proc.devRef .tc main_v31) = Cert.ReferenceIdeal.ReadP.val_main_v31 (F := Ideal) (m ((c : Thread nD τ).loc main_arg1)) (m ((c : Thread nD τ).loc main_arg2)) := (W6_of_ne m ρ c main_v31 (by decide)).trans (W5_v31 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)

theorem W7_v48 : W7 m ρ c (Proc.devRef .tc main_v48) = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((Cert.KernelIdeal.Projection2.final (V6 m ρ) c).trans (by
    rw [show V6 m ρ c main_v47 = _ from W6_v47 m ρ c, show V6 m ρ c main_arg5 = (m ((c : Thread nD τ).loc main_arg5)) from W6_arg5 m ρ c]; rfl))
theorem W7_v5 : W7 m ρ c (Proc.devRef .tc main_v5) = Cert.ReferenceIdeal.ReadP.val_main_v5 (F := Ideal) (m ((c : Thread nD τ).loc main_arg1)) := (W7_of_ne m ρ c main_v5 (by decide)).trans (W6_v5 m ρ c)
theorem W7_v6 : W7 m ρ c (Proc.devRef .tc main_v6) = Cert.ReferenceIdeal.ReadP.val_main_v6 (F := Ideal) (m ((c : Thread nD τ).loc main_arg1)) := (W7_of_ne m ρ c main_v6 (by decide)).trans (W6_v6 m ρ c)
theorem W7_v31 : W7 m ρ c (Proc.devRef .tc main_v31) = Cert.ReferenceIdeal.ReadP.val_main_v31 (F := Ideal) (m ((c : Thread nD τ).loc main_arg1)) (m ((c : Thread nD τ).loc main_arg2)) := (W7_of_ne m ρ c main_v31 (by decide)).trans (W6_v31 m ρ c)
theorem W7_arg6 : W7 m ρ c (Proc.devRef .tc main_arg6) = (m ((c : Thread nD τ).loc main_arg6)) := (W7_of_ne m ρ c main_arg6 (by decide)).trans (W6_arg6 m ρ c)

/-- The second aggregation. -/
theorem W8_v61 : W8 m ρ c (Proc.devRef .tc main_v61) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W7 m ρ c) (Proc.devRef .tc main_v61) = _
  read_stretch
  rw [W7_v5 m ρ c, W7_v6 m ρ c, W7_v31 m ρ c, W7_v48 m ρ c]
  rfl

/-- The second bias laid out as a row. -/
theorem W8_v62 : W8 m ρ c (Proc.devRef .tc main_v62) = Cert.ReferenceIdeal.ReadP.val_main_v64 (F := Ideal) (m ((c : Thread nD τ).loc main_arg6)) := by
  show StableHlo.after hostOps3 (W7 m ρ c) (Proc.devRef .tc main_v62) = _
  read_stretch
  rw [W7_arg6 m ρ c]
  exact (Cert.Lib.RowForms.broadcastInDim_row_eq_shapeCast (C := 16) (m ((c : Thread nD τ).loc main_arg6)) Cert.ReferenceIdeal.Gen.bcast_S16_S1x16_1 shapeCasts_S16_S1x16).symm

/-! ## The result -/

/-- The kernel's result buffer at the last boundary is the reference's result as a function of the seven arguments. -/
theorem W9_v63 : W9 m ρ c (Proc.devRef .tc main_v63) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((Cert.KernelIdeal.LogSoftmax.final (V8 m ρ) c).trans (by
    rw [show V8 m ρ c main_v61 = _ from W8_v61 m ρ c, show V8 m ρ c main_v62 = _ from W8_v62 m ρ c]
    exact Cert.Rowwise.logSoftmax_stage _ _ _ _ _ _ _))

end Cert.KernelIdeal.Fold

end
-- ==== Proof.lean ====
/-
  A two-layer graph convolution with log-softmax output: the Pallas program against its jnp reference, at the ideal values.

  Both programs add a self loop at every node, take the degrees d by a scatter-add of the edge weights, normalise every
  edge by d^(-1/2)[source] · w · d^(-1/2)[target], and compute

      log_softmax( Â · relu( Â · (x · W1) + b1 ) · W2 + b2 )         (Â the normalised adjacency, applied by gather / scale /
                                                                       scatter-add over the edges).

  The kernel does the two projections on the matrix unit by blocks of 5000 rows (operands rounded to bf16, which is the
  identity at the ideal values), the bias-and-rectifier and the bias-and-log-softmax in two more kernels on the same row
  blocks, and the sparse steps on the host exactly as the reference does.  Block by block each kernel is the reference's
  stage on the whole array (Projection1, BiasRelu, Projection2, LogSoftmax); the host stretches between them are the
  reference's operations verbatim (Fold).  So the kernel's result buffer ends at the reference's result as a function of
  the seven arguments, and from memories that agree on the arguments the two runs end with equal results.  No finiteness
  of the inputs is used: the two sides are the same expression on the extended reals.

  The frames of the two kernel programs are the generated ones; the reference's frame is its run (RefRun) with the result dropped;
  the ideal pass rewrote nothing, so the idealization claim is trivial.
-/
import proofs.«114454_j17308718202950_1_alg».proof.Defs
import proofs.«114454_j17308718202950_1_alg».proof.Proof.Gen.Kernel
import proofs.«114454_j17308718202950_1_alg».proof.Proof.Gen.Kernel.Skeleton
import proofs.«114454_j17308718202950_1_alg».proof.Proof.Gen.Kernel.Launch
import proofs.«114454_j17308718202950_1_alg».proof.Proof.Gen.Kernel.Points
import proofs.«114454_j17308718202950_1_alg».proof.Proof.Gen.Kernel.Frame
import proofs.«114454_j17308718202950_1_alg».proof.Proof.Gen.KernelIdeal
import proofs.«114454_j17308718202950_1_alg».proof.Proof.Gen.KernelIdeal.Skeleton
import proofs.«114454_j17308718202950_1_alg».proof.Proof.Gen.KernelIdeal.Launch
import proofs.«114454_j17308718202950_1_alg».proof.Proof.Gen.KernelIdeal.Points
import proofs.«114454_j17308718202950_1_alg».proof.Proof.Gen.KernelIdeal.Frame
import proofs.«114454_j17308718202950_1_alg».proof.Proof.Gen.ReferenceIdeal
import proofs.«114454_j17308718202950_1_alg».proof.Proof.Gen.Pre_finite_inputs
import proofs.«114454_j17308718202950_1_alg».proof.Proof.ReadP
import proofs.«114454_j17308718202950_1_alg».proof.Proof.RefRun
import proofs.«114454_j17308718202950_1_alg».proof.Proof.KRun
import proofs.«114454_j17308718202950_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the seven arguments both programs end with the reference's result as a function of the
    arguments: the kernel by its run and its fold, the reference by its run read stage by stage. -/
theorem algebraic : Cert.algebraic_KernelIdeal_ReferenceIdeal := by
  intro m ρ m' ρ' _ hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W9_v63 m ρ c), (h c).2⟩) (Cert.KernelIdeal.Run.run_result m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
